-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x17x3 : Shape := ⟨3, ![131072, 17, 3]⟩
abbrev S_ : Shape := ⟨0, ![]⟩

class Facts : Prop where
  bcast_S_S131072x17x3 : S_.BroadcastsInDim S131072x17x3 (![] : Fin 0 → Fin S131072x17x3.rank)
  reducesTo_S131072x17x3_S_d0_1_2 : S131072x17x3.ReducesTo [0, 1, 2] S_
  h_S_ : 0 < S_.numel

variable [Facts]

def fn {F : FTy → Type} [FloatOps F] (main_arg0 : FVec F S131072x17x3 .f32) : IVec S_ 1 :=
  let main_v0 : FVec F S131072x17x3 .f32 := Host.absf main_arg0
  let main_cst : FVec F S_ .f32 := constant S_ .f32 0x7F800000#32
  let main_v1 : FVec F S131072x17x3 .f32 := broadcastInDim S131072x17x3 ![] bcast_S_S131072x17x3 main_cst
  let main_v2 : IVec S131072x17x3 1 := cmpf .olt main_v0 main_v1
  let main_c : IVec S_ 1 := constantI S_ 1 1#1
  let main_v3 : IVec S_ 1 := (fun x v => Host.reduce IntOp.andi x v reducesTo_S131072x17x3_S_d0_1_2 h_S_) main_v2 main_c
  main_v3
-- ==== Kernel.lean ====
abbrev S131072x17x3 : Shape := ⟨3, ![131072, 17, 3]⟩
abbrev S131072x51 : Shape := ⟨2, ![131072, 51]⟩
abbrev S1x1 : Shape := ⟨2, ![1, 1]⟩
abbrev S512x51 : Shape := ⟨2, ![512, 51]⟩
abbrev S512x1 : Shape := ⟨2, ![512, 1]⟩
abbrev S512x3 : Shape := ⟨2, ![512, 3]⟩
abbrev S512 : Shape := ⟨1, ![512]⟩
abbrev S1 : Shape := ⟨1, ![1]⟩
abbrev S_ : Shape := ⟨0, ![]⟩

abbrev nBuf : Space → Nat
  | .hbm => 6
  | .vmem => 4
  | .smem => 0
  | _ => 0

abbrev bufTy : (tb : Table) → Fin (tcTables nBuf tb) → BufTy
  | .hbm, ⟨0, _⟩ => ⟨S131072x17x3, .f32⟩
  | .hbm, ⟨1, _⟩ => ⟨S131072x51, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S512x51, .f32⟩
  | .local _ .vmem, ⟨1, _⟩ => ⟨S512x51, .f32⟩
  | .local _ .vmem, ⟨2, _⟩ => ⟨S1x1, .f32⟩
  | .local _ .vmem, ⟨3, _⟩ => ⟨S1x1, .f32⟩
  | _, _ => ⟨S131072x17x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v2750 : BitVec 1 := Scalar.cmpi .eq arg0 c255_i32
  let v2751 : BitVec 32 := Scalar.extui v2750
  let c0_i32_823 : BitVec 32 := 0#32
  let v2752 : BitVec 1 := Scalar.cmpi .ne v2751 c0_i32_823
  v2752

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x51 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S131072x17x3_S131072x51 : S131072x17x3.ShapeCasts S131072x51
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x51_S512x51_0_0 : ∀ a, (![0, 0] : Fin 2 → Nat) a + S512x51.size a ≤ S512x51.size a
  h_S512x51 : 0 < S512x51.numel
  shapeCasts_S512x51_S512x51 : S512x51.ShapeCasts S512x51
  slices_S512x51_o0_0_S512x3 : S512x51.Slices ![0, 0] S512x3
  slices_S512x51_o0_3_S512x3 : S512x51.Slices ![0, 3] S512x3
  reduces_S512x3_S512 : S512x3.Reduces [1] S512
  shapeCasts_S512_S512x1 : S512.ShapeCasts S512x1
  slices_S512x51_o0_6_S512x3 : S512x51.Slices ![0, 6] S512x3
  slices_S512x51_o0_9_S512x3 : S512x51.Slices ![0, 9] S512x3
  slices_S512x51_o0_12_S512x3 : S512x51.Slices ![0, 12] S512x3
  slices_S512x51_o0_15_S512x3 : S512x51.Slices ![0, 15] S512x3
  slices_S512x51_o0_18_S512x3 : S512x51.Slices ![0, 18] S512x3
  slices_S512x51_o0_21_S512x3 : S512x51.Slices ![0, 21] S512x3
  slices_S512x51_o0_24_S512x3 : S512x51.Slices ![0, 24] S512x3
  slices_S512x51_o0_27_S512x3 : S512x51.Slices ![0, 27] S512x3
  slices_S512x51_o0_30_S512x3 : S512x51.Slices ![0, 30] S512x3
  slices_S512x51_o0_33_S512x3 : S512x51.Slices ![0, 33] S512x3
  slices_S512x51_o0_36_S512x3 : S512x51.Slices ![0, 36] S512x3
  slices_S512x51_o0_39_S512x3 : S512x51.Slices ![0, 39] S512x3
  slices_S512x51_o0_42_S512x3 : S512x51.Slices ![0, 42] S512x3
  slices_S512x51_o0_45_S512x3 : S512x51.Slices ![0, 45] S512x3
  slices_S512x51_o0_48_S512x3 : S512x51.Slices ![0, 48] S512x3
  reduces_S512x1_S1 : S512x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x51.size a ≤ S131072x51.size a
  hwx0_0 : ∀ i : grid0.Coords, EltTy.bits .f32 = 32 ∨ (Rect.block (s := S131072x51) S512x51.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S512x51.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S131072x17x3 : Shape := ⟨3, ![131072, 17, 3]⟩
abbrev S131072x17x1x3 : Shape := ⟨4, ![131072, 17, 1, 3]⟩
abbrev S131072x1x17x3 : Shape := ⟨4, ![131072, 1, 17, 3]⟩
abbrev S131072x17x17x3 : Shape := ⟨4, ![131072, 17, 17, 3]⟩
abbrev S_ : Shape := ⟨0, ![]⟩
abbrev S131072x17x17 : Shape := ⟨3, ![131072, 17, 17]⟩
abbrev S17x17 : Shape := ⟨2, ![17, 17]⟩
abbrev S1x17x17 : Shape := ⟨3, ![1, 17, 17]⟩
abbrev S131072 : Shape := ⟨1, ![131072]⟩

abbrev nBuf : Space → Nat
  | .hbm => 34
  | .vmem => 0
  | .smem => 0
  | _ => 0

abbrev bufTy : (tb : Table) → Fin (tcTables nBuf tb) → BufTy
  | .hbm, ⟨0, _⟩ => ⟨S131072x17x3, .f32⟩
  | .hbm, ⟨1, _⟩ => ⟨S131072x17x1x3, .f32⟩
  | .hbm, ⟨2, _⟩ => ⟨S131072x1x17x3, .f32⟩
  | .hbm, ⟨3, _⟩ => ⟨S131072x17x17x3, .f32⟩
  | .hbm, ⟨4, _⟩ => ⟨S131072x17x17x3, .f32⟩
  | .hbm, ⟨5, _⟩ => ⟨S131072x17x17x3, .f32⟩
  | .hbm, ⟨6, _⟩ => ⟨S131072x17x17x3, .f32⟩
  | .hbm, ⟨7, _⟩ => ⟨S_, .f32⟩
  | .hbm, ⟨8, _⟩ => ⟨S131072x17x17, .f32⟩
  | .hbm, ⟨9, _⟩ => ⟨S_, .f32⟩
  | .hbm, ⟨10, _⟩ => ⟨S131072x17x17, .f32⟩
  | .hbm, ⟨11, _⟩ => ⟨S131072x17x17, .f32⟩
  | .hbm, ⟨12, _⟩ => ⟨S_, .f32⟩
  | .hbm, ⟨13, _⟩ => ⟨S131072x17x17, .f32⟩
  | .hbm, ⟨14, _⟩ => ⟨S131072x17x17, .f32⟩
  | .hbm, ⟨15, _⟩ => ⟨S17x17, .i32⟩
  | .hbm, ⟨16, _⟩ => ⟨S17x17, .i32⟩
  | .hbm, ⟨17, _⟩ => ⟨S_, .i32⟩
  | .hbm, ⟨18, _⟩ => ⟨S17x17, .i32⟩
  | .hbm, ⟨19, _⟩ => ⟨S17x17, .i32⟩
  | .hbm, ⟨20, _⟩ => ⟨S17x17, .i1⟩
  | .hbm, ⟨21, _⟩ => ⟨S17x17, .i1⟩
  | .hbm, ⟨22, _⟩ => ⟨S1x17x17, .i1⟩
  | .hbm, ⟨23, _⟩ => ⟨S_, .f32⟩
  | .hbm, ⟨24, _⟩ => ⟨S_, .f32⟩
  | .hbm, ⟨25, _⟩ => ⟨S131072x17x17, .i1⟩
  | .hbm, ⟨26, _⟩ => ⟨S131072x17x17, .f32⟩
  | .hbm, ⟨27, _⟩ => ⟨S131072x17x17, .f32⟩
  | .hbm, ⟨28, _⟩ => ⟨S_, .f32⟩
  | .hbm, ⟨29, _⟩ => ⟨S131072, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S131072x17x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S131072x17x3_S131072x17x1x3_0_1_3 : S131072x17x3.BroadcastsInDim S131072x17x1x3 (![0, 1, 3] : Fin 3 → Fin S131072x17x1x3.rank)
  bcast_S131072x17x3_S131072x1x17x3_0_2_3 : S131072x17x3.BroadcastsInDim S131072x1x17x3 (![0, 2, 3] : Fin 3 → Fin S131072x1x17x3.rank)
  bcast_S131072x17x1x3_S131072x17x17x3_0_1_2_3 : S131072x17x1x3.BroadcastsInDim S131072x17x17x3 (![0, 1, 2, 3] : Fin 4 → Fin S131072x17x17x3.rank)
  bcast_S131072x1x17x3_S131072x17x17x3_0_1_2_3 : S131072x1x17x3.BroadcastsInDim S131072x17x17x3 (![0, 1, 2, 3] : Fin 4 → Fin S131072x17x17x3.rank)
  reducesTo_S131072x17x17x3_S131072x17x17_d3 : S131072x17x17x3.ReducesTo [3] S131072x17x17
  h_S_ : 0 < S_.numel
  bcast_S_S131072x17x17 : S_.BroadcastsInDim S131072x17x17 (![] : Fin 0 → Fin S131072x17x17.rank)
  bcast_S_S17x17 : S_.BroadcastsInDim S17x17 (![] : Fin 0 → Fin S17x17.rank)
  bcast_S17x17_S1x17x17_1_2 : S17x17.BroadcastsInDim S1x17x17 (![1, 2] : Fin 2 → Fin S1x17x17.rank)
  bcast_S1x17x17_S131072x17x17_0_1_2 : S1x17x17.BroadcastsInDim S131072x17x17 (![0, 1, 2] : Fin 3 → Fin S131072x17x17.rank)
  reducesTo_S131072x17x17_S131072_d1_2 : S131072x17x17.ReducesTo [1, 2] S131072
  reducesTo_S131072_S_d0 : S131072.ReducesTo [0] S_

variable [Facts₀]

class Facts : Prop extends Facts₀ where

variable [Facts]
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.PairHinge.lean ====
/-
  One grid point of the kernel as arithmetic on a 512 × 51 block of key points.

  A row of the block holds 17 joints of 3 coordinates each: joint i occupies columns 3i, 3i+1, 3i+2. For an ordered pair
  (i, j) of distinct joints the body forms, row by row, the hinge  max(0, θ − ‖xᵢ − xⱼ‖²)  (θ the threshold word), adds
  the 272 hinges of a row together, one after the other in the order (0,1), (0,2), …, (16,15), from zero, sums the 512 row
  totals, and adds that block total to the running total it carries from point to point.

  The definitions below say this for any float values; the lemmas read them at one row at the ideal values, where every
  operation is the extended reals' own: a row's accumulated column is zero plus the sum over the list of pairs of the
  hinges, and the step adds to the carried value the sum over the rows.
-/
import proofs.«131787_j39513699123324_2_alg».proof.Proof.Gen.KernelIdeal
import proofs.«131787_j39513699123324_2_alg».proof.Proof.LibSumsAtIndex
import proofs.«131787_j39513699123324_2_alg».proof.Proof.LibKeptColumn
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

variable {F : FTy → Type} [FloatOps F]

/-! ## The body's arithmetic, for any float values -/

/-- Joint i's three columns start at column 3i and end before column 51. -/
theorem joint_slices (i : Fin 17) : S512x51.Slices ![0, 3 * i.val] S512x3 :=
  ⟨rfl, fun a => by
    match a with
    | ⟨0, _⟩ => exact Nat.le_refl 512
    | ⟨1, _⟩ => show 3 * i.val + 3 ≤ 51; have := i.isLt; omega⟩

/-- The 512 × 3 block of joint i's coordinates. -/
def joint (x : FVec F S512x51 .f32) (i : Fin 17) : FVec F S512x3 .f32 :=
  extractStridedSlice S512x3 ![0, 3 * i.val] x (joint_slices i)

/-- The column of hinges of the ordered pair (i, j): max(0, θ − Σ_d (xᵢ − xⱼ)_d²), one entry per row. -/
def hingeV (x : FVec F S512x51 .f32) (i j : Fin 17) : FVec F S512x1 .f32 :=
  maximumf (broadcast S512x1 (Scalar.ofBits .f32 0x00000000#32))
    (subf (broadcast S512x1 (Scalar.ofBits .f32 0x3C23D70A#32))
      (shapeCast S512x1
        (multiReduction .add [1] S512 (mulf (subf (joint x i) (joint x j)) (subf (joint x i) (joint x j))) 0x00000000#32
          reduces_S512x3_S512 (.inl rfl) rfl)
        shapeCasts_S512_S512x1))

/-- The ordered pairs of distinct joints, first joint outermost, in increasing order. -/
def pairs : List (Fin 17 × Fin 17) :=
  (List.product (List.finRange 17) (List.finRange 17)).filter fun p => p.1 ≠ p.2

/-- The column accumulated over the pairs, in order, from zero. -/
def accV (x : FVec F S512x51 .f32) : FVec F S512x1 .f32 :=
  pairs.foldl (fun acc p => addf acc (hingeV x p.1 p.2)) (broadcast S512x1 (Scalar.ofBits .f32 0x00000000#32))

/-- One step of the running total: the carried 1 × 1 value plus the sum over the rows of the accumulated column. -/
def stepV (x : FVec F S512x51 .f32) (xs : Vec F S1x1 .f32) : FVec F S1x1 .f32 :=
  shapeCast S1x1
    (addf xs (shapeCast S1x1 (multiReduction .add [0] S1 (accV x) 0x00000000#32 reduces_S512x1_S1 (.inl rfl) rfl) shapeCasts_S1_S1x1))
    shapeCasts_S1x1_S1x1

/-- The 1 × 1 zero the first point stores before it accumulates. -/
def zeroV : FVec F S1x1 .f32 :=
  shapeCast S1x1 (broadcast S1x1 (Scalar.ofBits .f32 0x00000000#32)) shapeCasts_S1x1_S1x1

/-! ## Read at a row, at the ideal values -/

/-- Column 3i + d: coordinate d of joint i. -/
def col (i : Fin 17) (d : Fin 3) : Fin 51 := ⟨3 * i.val + d.val, by have := i.isLt; have := d.isLt; omega⟩

/-- The hinge of the pair (i, j) on one row of 51 numbers. -/
def hinge (row : Fin 51 → EReal) (i j : Fin 17) : EReal :=
  max (Ideal.ofBits .f32 0x00000000#32)
    (Ideal.ofBits .f32 0x3C23D70A#32 - ∑ d : Fin 3, (row (col i d) - row (col j d)) * (row (col i d) - row (col j d)))

theorem joint_apply (x : FVec Ideal S512x51 .f32) (i : Fin 17) (r : Fin 512) (d : Fin 3) :
    joint x i (ix2 r d) = x (ix2 r (col i d)) :=
  extractStridedSlice_apply _ x (joint_slices i) (ix2 r d) (ix2 r (col i d)) fun a => by
    match a with
    | ⟨0, _⟩ => show r.val = 0 + r.val; omega
    | ⟨1, _⟩ => rfl

/-- The sum along the three coordinates of a 512 × 3 block, at row r. -/
theorem coordSum_apply (src : FVec Ideal S512x3 .f32) (r : Fin 512) :
    multiReduction .add [1] S512 src 0x00000000#32 reduces_S512x3_S512 (.inl rfl) rfl (ix1 r) = ∑ d : Fin 3, src (ix2 r d) :=
  SumsAtIndex.rowsum_apply src _ _ _ _ r

/-- The sum along the 512 rows of a 512 × 1 column. -/
theorem rowsTotal_apply (src : FVec Ideal S512x1 .f32) :
    multiReduction .add [0] S1 src 0x00000000#32 reduces_S512x1_S1 (.inl rfl) rfl (ix1 (0 : Fin 1))
      = ∑ r : Fin 512, src (ix2 r (0 : Fin 1)) :=
  SumsAtIndex.colsum_apply src _ _ _ _ (0 : Fin 1)

theorem hingeV_apply (x : FVec Ideal S512x51 .f32) (i j : Fin 17) (r : Fin 512) (u : Fin 1) :
    hingeV x i j (ix2 r u) = hinge (fun k => x (ix2 r k)) i j := by
  unfold hingeV hinge
  rw [maximumf_apply, subf_apply, broadcast_apply, broadcast_apply, KeptColumn.shapeCast_a_a1_apply, coordSum_apply]
  simp only [mulf_apply, subf_apply, joint_apply]
  rfl

/-- Folding additions of columns and reading a row is folding additions of that row's entries. -/
theorem foldl_addf_apply {ι : Type} (g : ι → FVec Ideal S512x1 .f32) (y : S512x1.Idx) :
    ∀ (l : List ι) (z : FVec Ideal S512x1 .f32),
      l.foldl (fun acc p => addf acc (g p)) z y = z y + (l.map fun p => g p y).sum
  | [], z => by simp
  | p :: l, z => by
    rw [List.foldl_cons, foldl_addf_apply g y l, addf_apply, List.map_cons, List.sum_cons, add_assoc]

theorem accV_apply (x : FVec Ideal S512x51 .f32) (r : Fin 512) (u : Fin 1) :
    accV x (ix2 r u) = Ideal.ofBits .f32 0x00000000#32 + (pairs.map fun p => hinge (fun k => x (ix2 r k)) p.1 p.2).sum := by
  unfold accV
  rw [foldl_addf_apply]
  simp only [hingeV_apply, broadcast_apply]
  rfl

theorem stepV_apply (x : FVec Ideal S512x51 .f32) (xs : Vec Ideal S1x1 .f32) :
    stepV x xs (ix2 (0 : Fin 1) (0 : Fin 1)) = xs (ix2 (0 : Fin 1) (0 : Fin 1)) + ∑ r : Fin 512, accV x (ix2 r (0 : Fin 1)) := by
  unfold stepV
  rw [shapeCast_self, addf_apply, KeptColumn.shapeCast_a_a1_apply, rowsTotal_apply]

end Cert.KernelIdeal.Body

end
-- ==== Proof.Pieces.lean ====
/-
  What one run of the body leaves in the carried total and, at the last point, in the output block.

  At every grid point the body ends by storing, into the 1 × 1 total it carries, the step of PairHinge.lean applied to the
  point's input block and to the total it found: at the first point the total found is the zero it has just stored, at
  the other points it is what the point before left. At the last point the body then copies the total into the output
  block. Each statement is the body's one covering store read back; its payload, once the loads are replaced by the buffers'
  contents, is the step by unfolding both sides.
-/
import proofs.«131787_j39513699123324_2_alg».proof.Proof.Gen.KernelIdeal.Frame
import proofs.«131787_j39513699123324_2_alg».proof.Proof.PairHinge
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- At a middle point the carried total ends at the step of the block and of the total found. -/
theorem total_B (c : Dev nD) (i : grid0.Coords) (a1 : Memref sig .tc .vmem S512x51 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S512x51 .f32) (xs : Vec F S1x1 .f32) :
    sout0_B_0 c i a1 h1 a2 h2 a3 h3 hc0 hc1 x xs = stepV x xs := by
  unfold sout0_B_0
  rw [View.read_writes_eq_canon _ _ _ (scover0_B_0 c i a1 h1 a2 h2 a3 h3 hc0 hc1 x xs)]
  unfold kernelRun0_B
  dsimp only
  sl_unfold_words
  rw [View.canon_unit_zero hz]
  simp only [View.readAt_eq_ld, h1.read_unread, h3.read_unread, View.ld_unit_zero (S := S512x51) hz,
    View.ld_unit_zero (S := S1x1) hz]
  refine Eq.trans (b := stepV (shapeCast S512x51 x shapeCasts_S512x51_S512x51) xs) (by sl_kernel_rfl) ?_
  rw [shapeCast_self]

/-- At the first point the body stores the zero, reads it back, and leaves the step of the block and of that zero. -/
theorem total_A (c : Dev nD) (i : grid0.Coords) (a1 : Memref sig .tc .vmem S512x51 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S512x51 .f32) :
    sout0_A_0 c i a1 h1 a2 h2 a3 h3 hc0 hc1 x = stepV x zeroV := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) hz]
  simp only [View.readCov_unit_zero (S := S1x1) _ hz, View.readAt_eq_ld, h1.read_unread, View.ld_unit_zero (S := S512x51) hz]
  refine Eq.trans (b := stepV (shapeCast S512x51 x shapeCasts_S512x51_S512x51) zeroV) (by sl_kernel_rfl) ?_
  rw [shapeCast_self]

/-- At the last point the carried total ends at the step of the block and of the total found, -/
theorem total_C (c : Dev nD) (i : grid0.Coords) (a1 : Memref sig .tc .vmem S512x51 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S512x51 .f32) (xs : Vec F S1x1 .f32) :
    sout0_C_0 c i a1 h1 a2 h2 a3 h3 hc0 hc1 x xs = stepV x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S512x51) hz,
    View.ld_unit_zero (S := S1x1) hz]
  refine Eq.trans (b := stepV (shapeCast S512x51 x shapeCasts_S512x51_S512x51) xs) (by sl_kernel_rfl) ?_
  rw [shapeCast_self]

/-- and the output block, which the body fills from the total it has just stored, holds the same. -/
theorem out_C (c : Dev nD) (i : grid0.Coords) (a1 : Memref sig .tc .vmem S512x51 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S512x51 .f32) (xs : Vec F S1x1 .f32) :
    out0_C_1 c i a1 h1 a2 h2 a3 h3 hc0 hc1 x xs = stepV x xs := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz]
  simp only [View.readCov_unit_zero (S := S1x1) _ hz, View.readAt_eq_ld, h1.read_unread, h3.read_unread,
    View.ld_unit_zero (S := S512x51) hz, View.ld_unit_zero (S := S1x1) hz]
  refine Eq.trans (b := stepV (shapeCast S512x51 x shapeCasts_S512x51_S512x51) xs) (by sl_kernel_rfl) ?_
  rw [shapeCast_self]

end Cert.KernelIdeal.Body

end
-- ==== Proof.Totals.lean ====
/-
  The running total across the grid, and the block it is written into.

  The 256 grid points are visited in order. The total the kernel carries after point n is the step of point n's block applied
  to the total after point n − 1, starting at point 0 from the zero (by induction on the point, through the three cases the
  body distinguishes: first point, middle point, last point). At the ideal values its one entry is therefore zero plus the sum,
  over the points up to n, of each block's sum over its 512 rows of the accumulated column. Only the last point writes the
  output block back, so the 1 × 1 result array ends holding the total after point 255.
-/
import proofs.«131787_j39513699123324_2_alg».proof.Proof.Pieces

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ) (ρ : Dev nD → PrngReg)

/-- The total carried after point n: the step of point n's block over the total after the point before, from the zero. -/
def chain (c : Dev nD) : (n : ℕ) → n < cfg0.N → Vec F S1x1 .f32
  | 0, h => stepV (iblk m c 0 ⟨0, h⟩) zeroV
  | n + 1, h => stepV (iblk m c 0 ⟨n + 1, h⟩) (chain c n (Nat.lt_of_succ_lt h))

/-- The carried total after each point is the chain: induction on the point, one case of the body per kind of point. -/
theorem carried_eq (c : Dev nD) : ∀ (n : ℕ) (h : n < cfg0.N), (outsAt0 m c n h).2 = chain m c n h
  | 0, h => by
    rw [outsAt0_A m c ⟨0, h⟩ rfl (by dsimp only; omega), total_A]
    rfl
  | n + 1, h => by
    have hN : cfg0.N = 256 := N_0
    have h0 : ¬(⟨n + 1, h⟩ : Fin cfg0.N).val % 256 = 0 := by dsimp only; omega
    by_cases h1 : (⟨n + 1, h⟩ : Fin cfg0.N).val % 256 = 255
    · rw [outsAt0_C m c ⟨n + 1, h⟩ h0 h1, total_C]
      show stepV _ (outsAt0 m c n _).2 = stepV _ (chain m c n _)
      rw [carried_eq c n]
    · rw [outsAt0_B m c ⟨n + 1, h⟩ h0 h1, total_B]
      show stepV _ (outsAt0 m c n _).2 = stepV _ (chain m c n _)
      rw [carried_eq c n]

/-- The last point is point 255. -/
theorem last_lt : 255 < cfg0.N := by rw [show cfg0.N = 256 from N_0]; decide

/-- At the last point the output block holds the total after it. -/
theorem out_last (c : Dev nD) : (outsAt0 m c 255 last_lt).1 = chain m c 255 last_lt := by
  rw [outsAt0_C m c ⟨255, last_lt⟩ (by decide) rfl, out_C]
  show stepV _ (outsAt0 m c 254 _).2 = stepV _ (chain m c 254 _)
  rw [carried_eq m c 254]

end Cert.KernelIdeal.Body

end
-- ==== Proof.ResultArray.lean ====
/-
  The 1 × 1 array the kernel writes ends holding the total after the last grid point.

  The output window's block is the whole array at every point, and only the last point writes it back; what that point
  leaves in the block is the total after it (Totals.lean).
-/
import proofs.«131787_j39513699123324_2_alg».proof.Proof.Totals

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ) (ρ : Dev nD → PrngReg)

/-- The output window's block index is (0, 0) at every point, -/
theorem out_index_facts : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- and its block is 1 × 1. -/
theorem out_xsize_facts : ∀ t : Fin cfg0.N,
    win0_1.xsize (grid0.coords t) (0 : Fin 2) = 1 ∧ win0_1.xsize (grid0.coords t) (1 : Fin 2) = 1 :=
  (by decide +kernel : ∀ t : Fin grid0.N,
    win0_1.xsize (grid0.coords t) (0 : Fin 2) = 1 ∧ win0_1.xsize (grid0.coords t) (1 : Fin 2) = 1)

/-- The total after the last point, as contents of the 1 × 1 result array. -/
abbrev result (c : Dev nD) : Buf (Elt F) ((c : Thread nD τ).loc main_v1) := chain m c 255 last_lt

/-- At the point numbered 255 the output block holds the total after it. -/
theorem out_at_last (c : Dev nD) (t : Fin cfg0.N) (h : t.val = 255) : (outsAt0 m c t.val t.isLt).1 = result m c := by
  obtain ⟨n, hn⟩ := t
  dsimp only at h
  subst h
  exact out_last m c

/-- A write-back happens at the last point only, and writes the total: the block at (0, 0) of a 1 × 1 array is the array. -/
theorem flushed_eq (c : Dev nD) (t : Fin cfg0.N) (hf : (cfg0.win 1).flush t = true) :
    (dats m 0 c).flushed 1 t = ((cfg0.win 1).blk t).view.read (Elt F) (result m c) := by
  have hN : cfg0.N = 256 := N_0
  have h3 : t.val = 255 := by have := (flush0_1 t).mp hf; have := t.isLt; omega
  show (cfg0.win 1).cut (grid0.coords t) ((dats m 0 c).after 1 t) = _
  rw [after0_1, out_at_last m c t h3]
  have hz' : (fun a => win0_1.index t a * main_v1.ty.shape.size a) = fun _ => 0 :=
    funext fun a => by
      match a with
      | ⟨0, _⟩ => show win0_1.index t 0 * 1 = 0; rw [(out_index_facts t).1]
      | ⟨1, _⟩ => show win0_1.index t 1 * 1 = 0; rw [(out_index_facts t).2]
  exact (Memref.read_access_unit_zero (Elt F) main_v1 hz' (fun a => by rw [congrFun hz' a]; simp) (result m c)).symm

/-- At every point the output window's block covers the whole 1 × 1 array. -/
theorem blk_covers (c : Dev nD) (t : Fin cfg0.N) (i : ((cfg0.win 1).arr.view.loc ((c : Dev nD).tc : Thread nD τ)).2.ty.Idx) :
    i ∈ ((cfg0.win 1).blk t).view.set := by
  show i ∈ ((View.whole main_v1).slice (win0_1.rect t)).set
  rw [View.set_slice_whole, Rect.mem_set_unit]
  intro a
  have h0 : (i 0 : Nat) < 1 := (i 0).isLt
  have h1 : (i 1 : Nat) < 1 := (i 1).isLt
  match a with
  | ⟨0, _⟩ =>
    show win0_1.index t 0 * win0_1.size 0 ≤ (i 0 : Nat)
      ∧ (i 0 : Nat) < win0_1.index t 0 * win0_1.size 0 + win0_1.xsize (grid0.coords t) 0
    rw [(out_index_facts t).1, (out_xsize_facts t).1]
    omega
  | ⟨1, _⟩ =>
    show win0_1.index t 1 * win0_1.size 1 ≤ (i 1 : Nat)
      ∧ (i 1 : Nat) < win0_1.index t 1 * win0_1.size 1 + win0_1.xsize (grid0.coords t) 1
    rw [(out_index_facts t).2, (out_xsize_facts t).2]
    omega

/-- The last grid point. -/
def tLast : Fin cfg0.N := ⟨255, last_lt⟩

theorem tLast_flushes : (cfg0.win 1).flush tLast = true := (flush0_1 tLast).mpr rfl

/-- So the result array ends holding the total after the last point. -/
theorem final_o (c : Dev nD) : (dats m 0 c).arrAt 1 cfg0.N = result m c :=
  (dats m 0 c).arrAt_eq_of_cover 1 (result m c) (flushed_eq m c) fun i => ⟨tLast, tLast_flushes, blk_covers c tLast i⟩

end Cert.KernelIdeal.Body

end
-- ==== Proof.KernelRun.lean ====
/-
  The kernel's program, run: its scalar result is the entry of the 1 × 1 array the kernel wrote, divided by 131072.

  After the kernel the program reads the 1 × 1 array as a scalar and divides it by the f32 131072; the array is the total
  after the last grid point (ResultArray.lean), and the argument array is left as it was.
-/
import proofs.«131787_j39513699123324_2_alg».proof.Proof.ResultArray
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ) (ρ : Dev nD → PrngReg)

/-- What the program does with the 1 × 1 array after the kernel: its entry as a scalar, divided by the f32 131072. -/
def tailV (x : Vec F S1x1 .f32) : S_.Idx → Elt F .f32 :=
  Host.divf (F := F) (shapeCast S_ x shapeCasts_S1x1_S_) (constant (F := F) S_ .f32 0x48000000#32)

theorem tail_eq (c : Dev nD) :
    Pipeline.afterTail₀ cfgs (dats m) 0 (V0 m) [hostOps1] c main_v3 = tailV (result m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v1)
      = result m c :=
    (Pipeline.withArrays_arr spec0 launch0.win.arr_inj c _ _ 1).trans (final_o m c)
  unfold tailV
  show Host.divf (F := F) (shapeCast S_ (Pipeline.withArrays (cfgs 0).spec c (V0 m c)
    (fun w => (dats m 0 c).arrAt w (cfgs 0).N) (Proc.tc.devRef main_v1)) shapeCasts_S1x1_S_) _ = _
  rw [hw]

/-- The program's run, read: the scalar result, and the argument array as it was. -/
theorem run : θ_run defs (onTc (τ := τ) (main (F := F))) ⟨m, fun _ => 0, ρ⟩ fun r => ∀ c : Dev nD,
      r.2.mem ((c.tc : Thread nD τ).loc main_v3) = tailV (result m c)
      ∧ r.2.mem ((c.tc : Thread nD τ).loc main_arg0) = m ((c.tc : Thread nD τ).loc main_arg0) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c)⟩)
    (run_main m ρ)

end Cert.KernelIdeal.Body

end
-- ==== Proof.KernelValue.lean ====
/-
  The blocks the grid points read, as entries of the argument array.

  The argument, 131072 × 17 × 3, is first re-laid as 131072 × 51 (row b keeps its 51 numbers in order: entry (b, i, d) goes to
  column 3i + d). Grid point t reads rows 512t … 512t + 511 of the re-laid array: entry (r, k) of its block is entry
  (512t + r, k) of that array.
-/
import proofs.«131787_j39513699123324_2_alg».proof.Proof.Totals
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ) (ρ : Dev nD → PrngReg)

/-! ## The blocks the points read -/

/-- The region finds the re-laid argument in the array its input window reads. -/
theorem V_relaid (c : Dev nD) :
    (V m c main_v0 : S131072x51.Idx → Elt F .f32)
      = shapeCast S131072x51 (m ((c : Thread nD τ).loc main_arg0)) shapeCasts_S131072x17x3_S131072x51 := by
  show StableHlo.after hostOps0 (fun b => m (c, b)) (Proc.devRef .tc main_v0) = _
  after_results
  rfl

/-- Row 512t + r of the re-laid array. -/
def rowIdx (t : Fin cfg0.N) (r : Fin 512) : Fin 131072 :=
  ⟨512 * t.val + r.val, by
    have ht : t.val < 256 := lt_of_lt_of_eq t.isLt (show cfg0.N = 256 from N_0)
    have := r.isLt
    omega⟩

/-- The input window's block index at point t is (t, 0). -/
theorem index_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Point t's block, at (r, k), is the re-laid array at (512t + r, k). -/
theorem iblk_apply (c : Dev nD) (t : Fin cfg0.N) (r : Fin 512) (k : Fin 51) :
    (iblk m c 0 t : Vec F S512x51 .f32) (ix2 r k) = (V m c main_v0 : S131072x51.Idx → Elt F .f32) (ix2 (rowIdx t r) k) := by
  have hi := index_facts t
  unfold iblk
  rw [View.read_apply]
  show V m c main_v0 _ = V m c main_v0 _
  congr 1
  funext a
  apply Fin.ext
  match a with
  | ⟨0, _⟩ => show win0_0.index t 0 * 512 + 1 * r.val = 512 * t.val + r.val; rw [hi.1]; omega
  | ⟨1, _⟩ => show win0_0.index t 1 * 51 + 1 * k.val = k.val; rw [hi.2]; omega

end Cert.KernelIdeal.Body

end
-- ==== Proof.PairsSum.lean ====
/-
  Summing over the list of ordered pairs of distinct joints is summing over all ordered pairs with the diagonal set to zero.

  The list enumerates every pair (i, j) with i ≠ j exactly once, so a sum over it is the sum over the set of such pairs; and
  the sum over that set is the double sum over i and j of the summand where i ≠ j and of zero where i = j. This holds in any
  commutative additive monoid: no cancellation is used, only that addition may be reordered and regrouped, so it holds on
  the extended reals with their infinities.
-/
import proofs.«131787_j39513699123324_2_alg».proof.Proof.PairHinge

open scoped BigOperators

namespace Cert.KernelIdeal.Body

theorem pairs_nodup : pairs.Nodup :=
  ((List.nodup_finRange 17).product (List.nodup_finRange 17)).filter _

theorem mem_pairs (p : Fin 17 × Fin 17) : p ∈ pairs ↔ p.1 ≠ p.2 := by
  obtain ⟨i, j⟩ := p
  simp [pairs, List.mem_filter, List.pair_mem_product, List.mem_finRange]

theorem pairs_sum {M : Type*} [AddCommMonoid M] (h : Fin 17 → Fin 17 → M) :
    (pairs.map fun p => h p.1 p.2).sum = ∑ i : Fin 17, ∑ j : Fin 17, if i ≠ j then h i j else 0 := by
  rw [← List.sum_toFinset _ pairs_nodup]
  have hs : pairs.toFinset = Finset.univ.filter fun p : Fin 17 × Fin 17 => p.1 ≠ p.2 := by
    ext p
    simp [mem_pairs]
  rw [hs, Finset.sum_filter, Fintype.sum_prod_type]

end Cert.KernelIdeal.Body
-- ==== Proof.LossSpec.lean ====
/-
  The quantity both programs compute, over the extended reals.

  For one sample the key points are 17 joints in 3-space. Every ordered pair (i, j) of distinct joints contributes the hinge
  max(0, θ − ‖xᵢ − xⱼ‖²), θ the float nearest 0.01; a sample's loss is the sum of its 272 hinges, written as the double sum over
  i and j with the diagonal terms replaced by zero. The result is the sum of the 131072 samples' losses divided by 131072.

  The two float words involved (zero, θ) are kept as the words' values; nothing here evaluates θ.
-/
import Idealize.ShloMosaic.PureOps.Ideal
import Idealize.ShloMosaic.Lib.ValueIdx

noncomputable section

open scoped BigOperators

namespace Cert.LossSpec

open Idealize.ShloMosaic Idealize.ShloMosaic.ValueIdx

/-- The value of the f32 zero word. -/
def zero32 : EReal := Ideal.ofBits .f32 0x00000000#32
/-- The value of the threshold word, the float nearest 0.01. -/
def thr : EReal := Ideal.ofBits .f32 0x3C23D70A#32

/-- The hinge of two points of 3-space: max(0, θ − ‖p − q‖²). -/
def pairHinge (p q : Fin 3 → EReal) : EReal :=
  max zero32 (thr - ∑ d : Fin 3, (p d - q d) * (p d - q d))

/-- One sample's loss: the hinges of all ordered pairs of distinct joints. -/
def sampleLoss (joints : Fin 17 → Fin 3 → EReal) : EReal :=
  ∑ i : Fin 17, ∑ j : Fin 17, if i ≠ j then pairHinge (joints i) (joints j) else 0

/-- The sum of the samples' losses. -/
def total (A : (⟨3, ![131072, 17, 3]⟩ : Shape).Idx → EReal) : EReal :=
  ∑ b : Fin 131072, sampleLoss fun i d => A (ix3 b i d)

/-- The scalar result: the total divided, as the host divides, by the f32 131072. -/
def mean (s : EReal) : (⟨0, ![]⟩ : Shape).Idx → EReal :=
  Host.divf (F := Ideal) (fun _ => s) (constant (F := Ideal) ⟨0, ![]⟩ .f32 0x48000000#32)

theorem zero32_eq : zero32 = 0 := by unfold zero32; simp [Ideal.ofBits, Ideal.ieee]

end Cert.LossSpec

end
-- ==== Proof.KernelTotal.lean ====
/-
  At the ideal values the total after the last grid point is the sum of the samples' losses (LossSpec.lean).

  The total's entry is zero plus the sum over the points of each block's sum over its rows of the accumulated column
  (induction on the point over the step read at an entry). A row's accumulated entry is zero plus the sum over the list of
  ordered pairs of distinct joints of the row's hinges, which is the sample's loss (the list enumerates those pairs once
  each: PairsSum.lean), the row being row 512t + r of the re-laid argument, whose column 3i + d is entry (i, d) of the sample.
  Summing over the 256 points and the 512 rows of each is summing over the 131072 samples. Only reordering and regrouping of
  sums is used, which the extended reals allow without any finiteness.
-/
import proofs.«131787_j39513699123324_2_alg».proof.Proof.KernelValue
import proofs.«131787_j39513699123324_2_alg».proof.Proof.PairsSum
import proofs.«131787_j39513699123324_2_alg».proof.Proof.LossSpec

set_option maxRecDepth 16384

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.LossSpec

/-! ## One row -/

/-- The hinge of a row of 51 numbers is the hinge of the two joints' points. -/
theorem hinge_eq (row : Fin 51 → EReal) (i j : Fin 17) :
    hinge row i j = pairHinge (fun d => row (col i d)) (fun d => row (col j d)) := rfl

/-- A row's accumulated entry is the loss of the sample whose joints the row lists. -/
theorem accV_loss (x : FVec Ideal S512x51 .f32) (r : Fin 512) :
    accV x (ix2 r (0 : Fin 1)) = sampleLoss fun i d => x (ix2 r (col i d)) := by
  rw [accV_apply, pairs_sum fun i j => hinge (fun k => x (ix2 r k)) i j]
  show zero32 + _ = _
  rw [zero32_eq, zero_add]
  rfl

/-- Entry (b, 3i + d) of the re-laid array is entry (b, i, d) of the argument: the same row-major position. -/
theorem relaid_apply {α : Type} (A : S131072x17x3.Idx → α) (b : Fin 131072) (i : Fin 17) (d : Fin 3) :
    shapeCast S131072x51 A shapeCasts_S131072x17x3_S131072x51 (ix2 b (col i d)) = A (ix3 b i d) :=
  shapeCast_apply A _ _ _ (by
    rw [Shape.rowMajor_val_three, Shape.rowMajor_val_two]
    show (b.val * 17 + i.val) * 3 + d.val = b.val * 51 + (3 * i.val + d.val)
    ring)

/-! ## The grid -/

variable (m : (ℓ : Loc nD τ sig) → Buf (Elt Ideal) ℓ)

/-- The argument array on core c. -/
abbrev argA (c : Dev nD) : S131072x17x3.Idx → EReal := m ((c : Thread nD τ).loc main_arg0)

theorem zeroV_apply (y : S1x1.Idx) : zeroV (F := Ideal) y = zero32 := by
  unfold zeroV
  rw [shapeCast_self]
  rfl

/-- Point t's contribution: the sum over its block's rows of the accumulated column. -/
def blockSum (c : Dev nD) (t : Fin cfg0.N) : EReal :=
  ∑ r : Fin 512, accV (F := Ideal) (iblk m c 0 t) (ix2 r (0 : Fin 1))

/-- The total after point n: zero plus the contributions of the points up to n. -/
theorem chain_apply (c : Dev nD) : ∀ (n : ℕ) (h : n < cfg0.N),
    chain m c n h (ix2 (0 : Fin 1) (0 : Fin 1))
      = zero32 + ∑ t ∈ Finset.range (n + 1), if ht : t < cfg0.N then blockSum m c ⟨t, ht⟩ else 0
  | 0, h => by
    refine (stepV_apply (iblk m c 0 ⟨0, h⟩) (zeroV (F := Ideal))).trans ?_
    rw [zeroV_apply, Finset.sum_range_one, dif_pos h]
    rfl
  | n + 1, h => by
    refine (stepV_apply (iblk m c 0 ⟨n + 1, h⟩) (chain m c n (Nat.lt_of_succ_lt h))).trans ?_
    rw [chain_apply c n, Finset.sum_range_succ _ (n + 1), dif_pos h, add_assoc]
    rfl

/-- A point's contribution is the sum of the losses of its 512 samples. -/
theorem blockSum_eq (c : Dev nD) (t : Fin cfg0.N) :
    blockSum m c t = ∑ r : Fin 512, sampleLoss fun i d => argA m c (ix3 (rowIdx t r) i d) := by
  unfold blockSum
  refine Finset.sum_congr rfl fun r _ => ?_
  refine (accV_loss _ r).trans ?_
  refine congrArg sampleLoss (funext fun i => funext fun d => ?_)
  refine (iblk_apply m c t r (col i d)).trans ?_
  rw [V_relaid]
  exact relaid_apply _ _ i d

/-- Summing over 256 blocks of 512 consecutive rows is summing over the 131072 rows. -/
theorem sum_blocks (f : Fin 131072 → EReal) :
    ∑ t : Fin 256, ∑ r : Fin 512, f ⟨512 * t.val + r.val, by have := t.isLt; have := r.isLt; omega⟩ = ∑ b : Fin 131072, f b := by
  rw [← Fintype.sum_prod_type']
  exact Fintype.sum_equiv (finProdFinEquiv (m := 256) (n := 512)) _ _ fun p =>
    congrArg f (Fin.ext (by simp [finProdFinEquiv]; omega))

/-- The total after the last point is the sum of the samples' losses. -/
theorem chain_last (c : Dev nD) :
    chain m c 255 last_lt (ix2 (0 : Fin 1) (0 : Fin 1)) = total (argA m c) := by
  rw [chain_apply, zero32_eq, zero_add, Finset.sum_range]
  unfold total
  rw [← sum_blocks]
  refine Finset.sum_congr rfl fun t _ => ?_
  have ht : t.val < cfg0.N := lt_of_lt_of_eq t.isLt (show cfg0.N = 256 from N_0).symm
  rw [dif_pos ht, blockSum_eq]
  rfl

end Cert.KernelIdeal.Body

end
-- ==== Proof.RefSide.lean ====
/-
  The reference program's result is the mean of the samples' losses (LossSpec.lean).

  Read one operation at a time at an index: the two broadcasts of the argument give, at (b, i, j, d), coordinate d of joints i
  and j of sample b; their difference is squared and summed over d from zero; the threshold minus that, bounded below by zero,
  is the pair's hinge; the 17 × 17 mask "row index differs from column index" keeps it off the diagonal and puts zero on it;
  the sum over (i, j) from zero is the sample's loss; the sum over the samples from zero is the total; the quotient by 131072
  is the result.
-/
import proofs.«131787_j39513699123324_2_alg».proof.Proof.Gen.ReferenceIdeal.Read
import proofs.«131787_j39513699123324_2_alg».proof.Proof.LossSpec
import proofs.«131787_j39513699123324_2_alg».proof.Proof.LibSumsAtIndex

noncomputable section

open scoped BigOperators

namespace Cert.ReferenceIdeal.RefValue

open Cert.ReferenceIdeal Cert.ReferenceIdeal.Gen Cert.ReferenceIdeal.Read Cert.LossSpec
open Idealize.ShloMosaic Idealize.ShloMosaic.ValueIdx

variable (A : (⟨S131072x17x3, .f32⟩ : BufTy).Contents (Elt Ideal))

/-- The difference of coordinate k of joints i and j of sample b. -/
theorem diff_at (b : Fin 131072) (i j : Fin 17) (k : Fin 3) :
    val_main_v4 (F := Ideal) A (idx_main_v6 (ix3 b i j) k) = A (ix3 b i k) - A (ix3 b j k) := by
  have e1 : idx_main_v0 (idx_main_v2 (idx_main_v6 (ix3 b i j) k)) = ix3 b i k :=
    funext fun a => by match a with | ⟨0, _⟩ => rfl | ⟨1, _⟩ => rfl | ⟨2, _⟩ => rfl
  have e2 : idx_main_v1 (idx_main_v3 (idx_main_v6 (ix3 b i j) k)) = ix3 b j k :=
    funext fun a => by match a with | ⟨0, _⟩ => rfl | ⟨1, _⟩ => rfl | ⟨2, _⟩ => rfl
  rw [val_main_v4_apply, val_main_v2_apply, val_main_v0_apply, val_main_v3_apply, val_main_v1_apply, e1, e2]
  rfl

/-- The hinge of the pair (i, j) of sample b. -/
theorem hinge_at (b : Fin 131072) (i j : Fin 17) :
    val_main_v10 (F := Ideal) A (ix3 b i j) = pairHinge (fun d => A (ix3 b i d)) (fun d => A (ix3 b j d)) := by
  rw [val_main_v10_apply, val_main_v9_apply, val_main_cst_1_apply, val_main_v8_apply, val_main_v7_apply,
    val_main_cst_0_apply, val_main_v6_apply, val_main_cst_apply]
  simp only [val_main_v5_apply, diff_at]
  unfold pairHinge
  show max zero32 (thr - (zero32 + _)) = max zero32 (thr - _)
  rw [zero32_eq, zero_add]
  rfl

/-- The mask's bit at (i, j): one off the diagonal, zero on it. -/
theorem mask_bit : ∀ i j : Fin 17,
    ~~~(IntOp.cmpi .eq (IntOp.addi (BitVec.ofNat 32 i.val) 0#32) (BitVec.ofNat 32 j.val)) = if i ≠ j then 1#1 else 0#1 := by
  decide +kernel

theorem mask_at (b : Fin 131072) (i j : Fin 17) :
    val_main_call0_v1 (F := Ideal) (ix3 b i j) = if i ≠ j then 1#1 else 0#1 := by
  rw [val_main_call0_v1_apply, val_main_v17_apply, val_main_v16_apply, val_main_v15_apply, val_main_v14_apply,
    val_main_v11_apply, val_main_v13_apply, val_main_c_apply, val_main_v12_apply]
  exact mask_bit i j

/-- The masked hinge at (b, i, j). -/
theorem masked_at (b : Fin 131072) (i j : Fin 17) :
    val_main_v18 (F := Ideal) A (ix3 b i j)
      = if i ≠ j then pairHinge (fun d => A (ix3 b i d)) (fun d => A (ix3 b j d)) else 0 := by
  rw [val_main_v18_apply, mask_at, hinge_at, val_main_call0_v2_apply, val_main_call0_v0_apply, val_main_cst_2_apply]
  by_cases h : i ≠ j
  · rw [if_pos h, if_pos h]; exact select_one _ _
  · rw [if_neg h, if_neg h]
    refine (select_zero _ _).trans ?_
    exact zero32_eq

/-- The pairs (i, j) of one sample, as indices of the 131072 × 17 × 17 array. -/
def pairEmb (b : Fin 131072) : Fin 17 × Fin 17 ↪ S131072x17x17.Idx :=
  ⟨fun p => ix3 b p.1 p.2, fun p q h => Prod.ext (congrFun h 1) (congrFun h 2)⟩

/-- The host's sum over the two joint axes from an initial value, at sample b: the double sum over i and j. -/
theorem pairSum_at (x : S131072x17x17.Idx → EReal) (init : EReal) (b : Fin 131072) :
    Ideal.hostReduceAdd reducesTo_S131072x17x17_S131072_d1_2 x init (ix1 b) = init + ∑ i : Fin 17, ∑ j : Fin 17, x (ix3 b i j) := by
  unfold Ideal.hostReduceAdd
  have hf : (Finset.univ.filter fun idx : S131072x17x17.Idx => reducesTo_S131072x17x17_S131072_d1_2.drop idx = ix1 b)
      = Finset.univ.map (pairEmb b) := by
    ext idx
    simp only [Finset.mem_filter, Finset.mem_univ, true_and, Finset.mem_map, pairEmb, Function.Embedding.coeFn_mk, Prod.exists]
    constructor
    · intro h
      have h0 : idx 0 = b := congrFun h 0
      refine ⟨idx 1, idx 2, funext fun a => ?_⟩
      match a with
      | ⟨0, _⟩ => exact h0.symm
      | ⟨1, _⟩ => rfl
      | ⟨2, _⟩ => rfl
    · rintro ⟨i, j, rfl⟩
      funext a
      match a with
      | ⟨0, _⟩ => rfl
  rw [hf, Finset.sum_map, Fintype.sum_prod_type]
  rfl

/-- The loss of sample b. -/
theorem sample_at (b : Fin 131072) :
    val_main_v19 (F := Ideal) A (ix1 b) = sampleLoss fun i d => A (ix3 b i d) := by
  unfold val_main_v19
  simp only [Host.reduceAdd, Ideal.hostReduceAdd_def]
  rw [pairSum_at]
  simp only [masked_at]
  unfold sampleLoss
  show zero32 + _ = _
  rw [zero32_eq, zero_add]

/-- The sum over the samples from zero is the total. -/
theorem total_eq (i0 : S_.Idx) : val_main_v20 (F := Ideal) A i0 = total A := by
  rw [val_main_v20_apply, SumsAtIndex.sum_idx1]
  simp only [sample_at]
  show zero32 + _ = _
  rw [zero32_eq, zero_add]
  rfl

/-- The reference's result is the mean of the total. -/
theorem result_eq : val_main_v21 (F := Ideal) A = mean (total A) := by
  funext i0
  rw [val_main_v21_apply, total_eq]
  rfl

end Cert.ReferenceIdeal.RefValue

end
-- ==== Proof.lean ====
/-
  A separation loss over key points: the kernel and its reference compute the same extended real.

  The argument is 131072 samples of 17 joints in 3-space. For every ordered pair (i, j) of distinct joints of a sample the
  hinge is max(0, θ − ‖xᵢ − xⱼ‖²), θ the float nearest 0.01; the result is the sum of all hinges of all samples divided by 131072.

  The reference forms all 17 × 17 squared distances of a sample at once, masks the diagonal with zero, sums over the pairs and
  then over the samples, and divides. The kernel re-lays the argument as 131072 × 51, walks it in 256 blocks of 512 rows, and in
  each block adds the 272 hinges of every row one after the other, sums the rows, and adds the block's sum to a total it
  carries from block to block (set to zero at the first block, copied out after the last); the program then divides the total
  by 131072. At the ideal values both are the same sum taken in another order and grouping, with zeros added here and there;
  sums of extended reals may be reordered and regrouped freely, so the two results agree for every input, finite or not, and
  the precondition is not used. The same threshold word and the same divisor word appear on both sides and are never
  evaluated; only the zero word is, as 0.

  The frames of the two kernel programs are the generated ones; the reference's frame is its generated run with the result
  dropped; the idealization rewrote nothing.
-/
import proofs.«131787_j39513699123324_2_alg».proof.Defs
import proofs.«131787_j39513699123324_2_alg».proof.Proof.Gen.Kernel.Frame
import proofs.«131787_j39513699123324_2_alg».proof.Proof.Gen.KernelIdeal.Frame
import proofs.«131787_j39513699123324_2_alg».proof.Proof.Gen.ReferenceIdeal.Read
import proofs.«131787_j39513699123324_2_alg».proof.Proof.Gen.Pre_finite_inputs
import proofs.«131787_j39513699123324_2_alg».proof.Proof.KernelRun
import proofs.«131787_j39513699123324_2_alg».proof.Proof.KernelTotal
import proofs.«131787_j39513699123324_2_alg».proof.Proof.RefSide

noncomputable section

namespace Cert.Proof

open Idealize.ShloMosaic Idealize.ShloMosaic.TcCoe Idealize.SL.Sem Idealize.ShloMosaic.ValueIdx
open Cert.LossSpec

/-- A 1 × 1 array read as a scalar is its one entry; so the kernel program's last two steps give the mean of that entry. -/
theorem tail_mean (x : Vec Ideal Cert.KernelIdeal.S1x1 .f32) :
    Cert.KernelIdeal.Body.tailV (F := Ideal) x = mean (x (ix2 (0 : Fin 1) (0 : Fin 1))) := by
  have hs : shapeCast Cert.KernelIdeal.S_ x Cert.KernelIdeal.Gen.shapeCasts_S1x1_S_ = fun _ => x (ix2 (0 : Fin 1) (0 : Fin 1)) := by
    funext i0
    refine shapeCast_apply x _ i0 (ix2 (0 : Fin 1) (0 : Fin 1)) ?_
    have h0 : (Cert.KernelIdeal.S_.rowMajor i0).val = 0 := by
      have := (Cert.KernelIdeal.S_.rowMajor i0).isLt
      have hn : Cert.KernelIdeal.S_.numel = 1 := by decide
      omega
    rw [h0, Shape.rowMajor_val_two]
    rfl
  unfold Cert.KernelIdeal.Body.tailV
  rw [hs]
  rfl

/-- At the ideal values the kernel's program ends with the mean of the samples' losses in its result. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v3)
            = mean (total (m ((c.tc : Thread Cert.KernelIdeal.nD Cert.KernelIdeal.τ).loc Cert.KernelIdeal.main_arg0)))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0) :=
  (θ_run Cert.KernelIdeal.defs _ _).mono
    (fun _ h c => ⟨(h c).1.trans ((tail_mean _).trans (congrArg mean (Cert.KernelIdeal.Body.chain_last m c))), (h c).2⟩)
    (Cert.KernelIdeal.Body.run (F := Ideal) m ρ)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the argument, end with the mean of the samples' losses. -/
theorem algebraic : Cert.algebraic_KernelIdeal_ReferenceIdeal := by
  intro m ρ m' ρ' _ hagree
  refine ⟨fun c => mean (total (m ((c.tc : Thread Cert.KernelIdeal.nD Cert.KernelIdeal.τ).loc Cert.KernelIdeal.main_arg0))),
    kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
